-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x9x1024 : Shape := ⟨3, ![8192, 9, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S8192x9x1024 : S_.BroadcastsInDim S8192x9x1024 (![] : Fin 0 → Fin S8192x9x1024.rank)
  reducesTo_S8192x9x1024_S_d0_1_2 : S8192x9x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8192x9x1024 .f32) (main_arg1 : FVec F S1024x4096 .f32) (main_arg2 : FVec F S4096 .f32) (main_arg3 : FVec F S4096x1024 .f32) (main_arg4 : FVec F S1024 .f32) : IVec S_ 1 :=
  let main_v0 : FVec F S8192x9x1024 .f32 := Host.absf main_arg0
  let main_cst : FVec F S_ .f32 := constant S_ .f32 0x7F800000#32
  let main_v1 : FVec F S8192x9x1024 .f32 := broadcastInDim S8192x9x1024 ![] bcast_S_S8192x9x1024 main_cst
  let main_v2 : IVec S8192x9x1024 1 := cmpf .olt main_v0 main_v1
  let main_c : IVec S_ 1 := constantI S_ 1 1#1
  let main_v3 : IVec S_ 1 := (fun x v => Host.reduce IntOp.andi x v reducesTo_S8192x9x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S8192x9x1024 : Shape := ⟨3, ![8192, 9, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S4x8192x1024 : Shape := ⟨3, ![4, 8192, 1024]⟩
abbrev S64x9x1024 : Shape := ⟨3, ![64, 9, 1024]⟩
abbrev S4x64x1024 : Shape := ⟨3, ![4, 64, 1024]⟩
abbrev S64x1x1024 : Shape := ⟨3, ![64, 1, 1024]⟩
abbrev S64x1024 : Shape := ⟨2, ![64, 1024]⟩
abbrev S256x1024 : Shape := ⟨2, ![256, 1024]⟩
abbrev S256x4096 : Shape := ⟨2, ![256, 4096]⟩
abbrev S1x4096 : Shape := ⟨2, ![1, 4096]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x9x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S4x8192x1024, .f32⟩
  | .local _ .vmem, ⟨0, _⟩ => ⟨S64x9x1024, .f32⟩
  | .local _ .vmem, ⟨1, _⟩ => ⟨S64x9x1024, .f32⟩
  | .local _ .vmem, ⟨2, _⟩ => ⟨S1024x4096, .bf16⟩
  | .local _ .vmem, ⟨3, _⟩ => ⟨S4096, .f32⟩
  | .local _ .vmem, ⟨4, _⟩ => ⟨S4096x1024, .bf16⟩
  | .local _ .vmem, ⟨5, _⟩ => ⟨S1024, .f32⟩
  | .local _ .vmem, ⟨6, _⟩ => ⟨S4x64x1024, .f32⟩
  | .local _ .vmem, ⟨7, _⟩ => ⟨S4x64x1024, .f32⟩
  | _, _ => ⟨S8192x9x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x9x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S64x9x1024_S64x1x1024_0_2_0 : ∀ a, (![0, 2, 0] : Fin 3 → Nat) a + S64x1x1024.size a ≤ S64x9x1024.size a
  h_S64x1x1024 : 0 < S64x1x1024.numel
  shapeCasts_S64x1x1024_S64x1024 : S64x1x1024.ShapeCasts S64x1024
  inb_S64x9x1024_S64x1x1024_0_3_0 : ∀ a, (![0, 3, 0] : Fin 3 → Nat) a + S64x1x1024.size a ≤ S64x9x1024.size a
  inb_S64x9x1024_S64x1x1024_0_4_0 : ∀ a, (![0, 4, 0] : Fin 3 → Nat) a + S64x1x1024.size a ≤ S64x9x1024.size a
  inb_S64x9x1024_S64x1x1024_0_5_0 : ∀ a, (![0, 5, 0] : Fin 3 → Nat) a + S64x1x1024.size a ≤ S64x9x1024.size a
  inb_S64x9x1024_S64x1x1024_0_6_0 : ∀ a, (![0, 6, 0] : Fin 3 → Nat) a + S64x1x1024.size a ≤ S64x9x1024.size a
  inb_S64x9x1024_S64x1x1024_0_7_0 : ∀ a, (![0, 7, 0] : Fin 3 → Nat) a + S64x1x1024.size a ≤ S64x9x1024.size a
  inb_S64x9x1024_S64x1x1024_0_8_0 : ∀ a, (![0, 8, 0] : Fin 3 → Nat) a + S64x1x1024.size a ≤ S64x9x1024.size a
  concatenates_S64x1024_S64x1024_S64x1024_S64x1024_S256x1024_d0 : Shape.Concatenates [S64x1024, S64x1024, S64x1024, S64x1024] S256x1024 0
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  shapeCasts_S256x1024_S4x64x1024 : S256x1024.ShapeCasts S4x64x1024
  inb_S4x64x1024_S4x64x1024_0_0_0 : ∀ a, (![0, 0, 0] : Fin 3 → Nat) a + S4x64x1024.size a ≤ S4x64x1024.size a
  h_S4x64x1024 : 0 < S4x64x1024.numel
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x9x1024.size a ≤ S8192x9x1024.size a
  hwx0_0 : ∀ i : grid0.Coords, EltTy.bits .f32 = 32 ∨ (Rect.block (s := S8192x9x1024) S64x9x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x64x1024.size a ≤ S4x8192x1024.size a
  hwx0_5 : ∀ i : grid0.Coords, EltTy.bits .f32 = 32 ∨ (Rect.block (s := S4x8192x1024) S4x64x1024.size (cc0_transform_5 i) (hinb0_5 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S64x9x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4x64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x9x1024 : Shape := ⟨3, ![8192, 9, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S8192x1x1024 : Shape := ⟨3, ![8192, 1, 1024]⟩
abbrev S8192x1024 : Shape := ⟨2, ![8192, 1024]⟩
abbrev S_ : Shape := ⟨0, ![]⟩
abbrev S8192x4096 : Shape := ⟨2, ![8192, 4096]⟩
abbrev S1x4096 : Shape := ⟨2, ![1, 4096]⟩
abbrev S1x1024 : Shape := ⟨2, ![1, 1024]⟩
abbrev S1x8192x1024 : Shape := ⟨3, ![1, 8192, 1024]⟩
abbrev S4x8192x1024 : Shape := ⟨3, ![4, 8192, 1024]⟩

abbrev nBuf : Space → Nat
  | .hbm => 128
  | .vmem => 0
  | .smem => 0
  | _ => 0

abbrev bufTy : (tb : Table) → Fin (tcTables nBuf tb) → BufTy
  | .hbm, ⟨0, _⟩ => ⟨S8192x9x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S8192x1x1024, .f32⟩
  | .hbm, ⟨6, _⟩ => ⟨S8192x1024, .f32⟩
  | .hbm, ⟨7, _⟩ => ⟨S8192x1x1024, .f32⟩
  | .hbm, ⟨8, _⟩ => ⟨S8192x1024, .f32⟩
  | .hbm, ⟨9, _⟩ => ⟨S8192x1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1x1024, .f32⟩
  | .hbm, ⟨14, _⟩ => ⟨S8192x1024, .f32⟩
  | .hbm, ⟨15, _⟩ => ⟨S8192x1x1024, .f32⟩
  | .hbm, ⟨16, _⟩ => ⟨S8192x1024, .f32⟩
  | .hbm, ⟨17, _⟩ => ⟨S8192x1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1x1024, .f32⟩
  | .hbm, ⟨22, _⟩ => ⟨S8192x1024, .f32⟩
  | .hbm, ⟨23, _⟩ => ⟨S8192x1x1024, .f32⟩
  | .hbm, ⟨24, _⟩ => ⟨S8192x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x4096, .f32⟩
  | .hbm, ⟨42, _⟩ => ⟨S1x4096, .f32⟩
  | .hbm, ⟨43, _⟩ => ⟨S8192x4096, .f32⟩
  | .hbm, ⟨44, _⟩ => ⟨S8192x4096, .f32⟩
  | .hbm, ⟨45, _⟩ => ⟨S_, .f32⟩
  | .hbm, ⟨46, _⟩ => ⟨S8192x4096, .f32⟩
  | .hbm, ⟨47, _⟩ => ⟨S8192x4096, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S8192x1x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x4096, .f32⟩
  | .hbm, ⟨66, _⟩ => ⟨S1x4096, .f32⟩
  | .hbm, ⟨67, _⟩ => ⟨S8192x4096, .f32⟩
  | .hbm, ⟨68, _⟩ => ⟨S8192x4096, .f32⟩
  | .hbm, ⟨69, _⟩ => ⟨S_, .f32⟩
  | .hbm, ⟨70, _⟩ => ⟨S8192x4096, .f32⟩
  | .hbm, ⟨71, _⟩ => ⟨S8192x4096, .f32⟩
  | .hbm, ⟨72, _⟩ => ⟨S8192x1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192x1024, .f32⟩
  | .hbm, ⟨82, _⟩ => ⟨S8192x1024, .f32⟩
  | .hbm, ⟨83, _⟩ => ⟨S8192x1x1024, .f32⟩
  | .hbm, ⟨84, _⟩ => ⟨S8192x1024, .f32⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x4096, .f32⟩
  | .hbm, ⟨90, _⟩ => ⟨S1x4096, .f32⟩
  | .hbm, ⟨91, _⟩ => ⟨S8192x4096, .f32⟩
  | .hbm, ⟨92, _⟩ => ⟨S8192x4096, .f32⟩
  | .hbm, ⟨93, _⟩ => ⟨S_, .f32⟩
  | .hbm, ⟨94, _⟩ => ⟨S8192x4096, .f32⟩
  | .hbm, ⟨95, _⟩ => ⟨S8192x4096, .f32⟩
  | .hbm, ⟨96, _⟩ => ⟨S8192x1024, .f32⟩
  | .hbm, ⟨97, _⟩ => ⟨S1x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S8192x1024, .f32⟩
  | .hbm, ⟨105, _⟩ => ⟨S8192x1024, .f32⟩
  | .hbm, ⟨106, _⟩ => ⟨S8192x1x1024, .f32⟩
  | .hbm, ⟨107, _⟩ => ⟨S8192x1024, .f32⟩
  | .hbm, ⟨108, _⟩ => ⟨S_, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x4096, .f32⟩
  | .hbm, ⟨113, _⟩ => ⟨S1x4096, .f32⟩
  | .hbm, ⟨114, _⟩ => ⟨S8192x4096, .f32⟩
  | .hbm, ⟨115, _⟩ => ⟨S8192x4096, .f32⟩
  | .hbm, ⟨116, _⟩ => ⟨S_, .f32⟩
  | .hbm, ⟨117, _⟩ => ⟨S8192x4096, .f32⟩
  | .hbm, ⟨118, _⟩ => ⟨S8192x4096, .f32⟩
  | .hbm, ⟨119, _⟩ => ⟨S8192x1024, .f32⟩
  | .hbm, ⟨120, _⟩ => ⟨S1x1024, .f32⟩
  | .hbm, ⟨121, _⟩ => ⟨S8192x1024, .f32⟩
  | .hbm, ⟨122, _⟩ => ⟨S8192x1024, .f32⟩
  | .hbm, ⟨123, _⟩ => ⟨S1x8192x1024, .f32⟩
  | .hbm, ⟨124, _⟩ => ⟨S1x8192x1024, .f32⟩
  | .hbm, ⟨125, _⟩ => ⟨S1x8192x1024, .f32⟩
  | .hbm, ⟨126, _⟩ => ⟨S1x8192x1024, .f32⟩
  | .hbm, ⟨127, _⟩ => ⟨S4x8192x1024, .f32⟩
  | _, _ => ⟨S8192x9x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_call0_cst : Ref sig .tc := ⟨.hbm, 45, rfl⟩
abbrev main_call0_v0 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call1_cst : Ref sig .tc := ⟨.hbm, 69, rfl⟩
abbrev main_call1_v0 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_6 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_7 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_call2_cst : Ref sig .tc := ⟨.hbm, 93, rfl⟩
abbrev main_call2_v0 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_8 : Ref sig .tc := ⟨.hbm, 100, rfl⟩
abbrev main_v80 : Ref sig .tc := ⟨.hbm, 101, rfl⟩
abbrev main_v81 : Ref sig .tc := ⟨.hbm, 102, rfl⟩
abbrev main_cst_9 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_10 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_call3_cst : Ref sig .tc := ⟨.hbm, 116, rfl⟩
abbrev main_call3_v0 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩

abbrev nD : Nat := 1
abbrev τ : Topo := Topo.v7x

variable {F : FTy → Type} [FloatOps F]

class Facts₀ : Prop where
  slices_S8192x9x1024_S8192x1x1024_0_2_0 : S8192x9x1024.Slices ![0, 2, 0] S8192x1x1024
  shapeCasts_S8192x1x1024_S8192x1024 : S8192x1x1024.ShapeCasts S8192x1024
  slices_S8192x9x1024_S8192x1x1024_0_3_0 : S8192x9x1024.Slices ![0, 3, 0] S8192x1x1024
  slices_S8192x9x1024_S8192x1x1024_0_4_0 : S8192x9x1024.Slices ![0, 4, 0] S8192x1x1024
  slices_S8192x9x1024_S8192x1x1024_0_5_0 : S8192x9x1024.Slices ![0, 5, 0] S8192x1x1024
  slices_S8192x9x1024_S8192x1x1024_0_6_0 : S8192x9x1024.Slices ![0, 6, 0] S8192x1x1024
  slices_S8192x9x1024_S8192x1x1024_0_7_0 : S8192x9x1024.Slices ![0, 7, 0] S8192x1x1024
  slices_S8192x9x1024_S8192x1x1024_0_8_0 : S8192x9x1024.Slices ![0, 8, 0] S8192x1x1024
  bcast_S_S8192x1024 : S_.BroadcastsInDim S8192x1024 (![] : Fin 0 → Fin S8192x1024.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S8192x1024_S1x8192x1024_1_2 : S8192x1024.BroadcastsInDim S1x8192x1024 (![1, 2] : Fin 2 → Fin S1x8192x1024.rank)
  concatenates_S1x8192x1024_S1x8192x1024_S1x8192x1024_S1x8192x1024_S4x8192x1024_d0 : Shape.Concatenates [S1x8192x1024, S1x8192x1024, S1x8192x1024, S1x8192x1024] S4x8192x1024 0
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.Spec.lean ====
/-
  The mathematics both programs compute, on extended reals.

  Each batch row carries nine node embeddings e 0 … e 8 (one number per feature). Four of the nodes receive
  messages; the aggregate of the messages at a receiving node is a fixed linear combination of the nine
  embeddings with coefficients 3, -3 and ε (the float nearest 1/10), and a two-layer perceptron
  x ↦ max (x · W₁ + b₁) 0 · W₂ + b₂ is applied to each aggregate.

  The two programs spell the aggregate differently: one as a left-to-right sum of products
  e n · coefficient (`kagg`), the other as 3 · (sum of per-edge sums and differences) + e t · ε (`ragg`).
  For REAL embeddings the two are equal by distributivity (`agg_eq`); at infinite embeddings
  distributivity is not available, so finiteness of the embeddings is what the equality rests on.
-/
import Idealize.ShloMosaic.PureOps.Ideal
import Idealize.ShloMosaic.PureOps.Ideal.Laws
import Idealize.ShloMosaic.Lib.ValueIdx

noncomputable section

open scoped BigOperators

namespace Cert.Msg

open Idealize.ShloMosaic Idealize.ShloMosaic.ValueIdx

/-- The coefficient 3 (three message-passing layers), as its float pattern. -/
abbrev three : EReal := Ideal.ofBits .f32 0x40400000#32
/-- The coefficient -3. -/
abbrev negThree : EReal := Ideal.ofBits .f32 0xC0400000#32
/-- The self-weight ε: the float nearest 1/10. -/
abbrev eps : EReal := Ideal.ofBits .f32 0x3DCCCCCD#32
/-- The float zero. -/
abbrev zero : EReal := Ideal.ofBits .f32 0x00000000#32

theorem three_eq : three = ((3 : ℝ) : EReal) := by
  simp [Ideal.ofBits, Ideal.ieee, -EReal.coe_mul]; norm_num

theorem negThree_eq : negThree = ((-3 : ℝ) : EReal) := by
  simp [Ideal.ofBits, Ideal.ieee, -EReal.coe_mul]; norm_num

/-- ε is a real number (its exact value never matters: it multiplies the same embedding on both sides). -/
theorem eps_real : ∃ r : ℝ, eps = (r : EReal) := by
  refine ⟨(13421773 / 134217728 : ℝ), ?_⟩
  simp [Ideal.ofBits, Ideal.ieee, -EReal.coe_mul]; norm_num

theorem zero_eq : zero = ((0 : ℝ) : EReal) := by
  rw [EReal.coe_zero]; exact Ideal.ofBits_zero_f32

/-- The aggregate at receiving node 2, 4, 6, 8 (numbered 0 … 3) of a row with embeddings `e`, summed left to
    right over the contributing nodes in increasing order, each embedding times its coefficient. -/
def kagg (e : Fin 9 → EReal) : Fin 4 → EReal
  | ⟨0, _⟩ => (e 2 * eps + e 3 * negThree) + e 4 * three
  | ⟨1, _⟩ => (((e 2 * three + e 3 * three) + e 4 * eps) + e 5 * negThree) + e 6 * three
  | ⟨2, _⟩ => (((e 4 * three + e 5 * three) + e 6 * eps) + e 7 * negThree) + e 8 * three
  | ⟨3, _⟩ => (e 6 * three + e 7 * three) + e 8 * eps

/-- The same aggregate spelt edge by edge: along an edge (h, r, t) the tail t receives e h + e r and the head h
    receives e t - e r; the messages at a node are added starting from zero, scaled by 3, and ε times the
    node's own embedding is added. -/
def ragg (e : Fin 9 → EReal) : Fin 4 → EReal
  | ⟨0, _⟩ => three * (zero + (e 4 - e 3)) + e 2 * eps
  | ⟨1, _⟩ => three * ((zero + (e 2 + e 3)) + (e 6 - e 5)) + e 4 * eps
  | ⟨2, _⟩ => three * ((zero + (e 4 + e 5)) + (e 8 - e 7)) + e 6 * eps
  | ⟨3, _⟩ => three * (zero + (e 6 + e 7)) + e 8 * eps

/-- For real embeddings the two spellings agree: distributivity of 3 over the edge sums, and
    3 · (-x) = x · (-3). -/
theorem agg_eq (e : Fin 9 → EReal) (he : ∀ n, ∃ r : ℝ, e n = (r : EReal)) (t : Fin 4) : kagg e t = ragg e t := by
  obtain ⟨c, hc⟩ := eps_real
  choose r hr using he
  match t with
  | ⟨0, _⟩ =>
    simp only [kagg, ragg, hr, hc, three_eq, negThree_eq, zero_eq]
    simp only [← EReal.coe_mul, ← EReal.coe_add, ← EReal.coe_sub]
    exact congrArg _ (by ring)
  | ⟨1, _⟩ =>
    simp only [kagg, ragg, hr, hc, three_eq, negThree_eq, zero_eq]
    simp only [← EReal.coe_mul, ← EReal.coe_add, ← EReal.coe_sub]
    exact congrArg _ (by ring)
  | ⟨2, _⟩ =>
    simp only [kagg, ragg, hr, hc, three_eq, negThree_eq, zero_eq]
    simp only [← EReal.coe_mul, ← EReal.coe_add, ← EReal.coe_sub]
    exact congrArg _ (by ring)
  | ⟨3, _⟩ =>
    simp only [kagg, ragg, hr, hc, three_eq, negThree_eq, zero_eq]
    simp only [← EReal.coe_mul, ← EReal.coe_add, ← EReal.coe_sub]
    exact congrArg _ (by ring)

/-- The two-layer perceptron on one row `x` of 1024 features, read at output feature `d`:
    Σ_h max (Σ_k x k · W₁[k,h] + b₁[h]) 0 · W₂[h,d] + b₂[d]. -/
def mlp (x : Fin 1024 → EReal) (w1 : (⟨2, ![1024, 4096]⟩ : Shape).Idx → EReal) (b1 : (⟨1, ![4096]⟩ : Shape).Idx → EReal)
    (w2 : (⟨2, ![4096, 1024]⟩ : Shape).Idx → EReal) (b2 : (⟨1, ![1024]⟩ : Shape).Idx → EReal) (d : Fin 1024) : EReal :=
  (∑ h : Fin 4096, max ((∑ k : Fin 1024, x k * w1 (ix2 k h)) + b1 (ix1 h)) zero * w2 (ix2 h d)) + b2 (ix1 d)

/-- The whole result [4, 8192, 1024] with the aggregate spelt as a sum of products: entry (t, b, d) is the
    perceptron of row b's aggregate at receiving node t, at feature d. -/
def outK (ne : (⟨3, ![8192, 9, 1024]⟩ : Shape).Idx → EReal) (w1 : (⟨2, ![1024, 4096]⟩ : Shape).Idx → EReal)
    (b1 : (⟨1, ![4096]⟩ : Shape).Idx → EReal) (w2 : (⟨2, ![4096, 1024]⟩ : Shape).Idx → EReal)
    (b2 : (⟨1, ![1024]⟩ : Shape).Idx → EReal) : (⟨3, ![4, 8192, 1024]⟩ : Shape).Idx → EReal :=
  fun j => mlp (fun k => kagg (fun n => ne (ix3 (j 1) n k)) (j 0)) w1 b1 w2 b2 (j 2)

/-- The same with the aggregate spelt edge by edge. -/
def outR (ne : (⟨3, ![8192, 9, 1024]⟩ : Shape).Idx → EReal) (w1 : (⟨2, ![1024, 4096]⟩ : Shape).Idx → EReal)
    (b1 : (⟨1, ![4096]⟩ : Shape).Idx → EReal) (w2 : (⟨2, ![4096, 1024]⟩ : Shape).Idx → EReal)
    (b2 : (⟨1, ![1024]⟩ : Shape).Idx → EReal) : (⟨3, ![4, 8192, 1024]⟩ : Shape).Idx → EReal :=
  fun j => mlp (fun k => ragg (fun n => ne (ix3 (j 1) n k)) (j 0)) w1 b1 w2 b2 (j 2)

/-- With every embedding real, the two results are one array. -/
theorem outK_eq_outR (ne : (⟨3, ![8192, 9, 1024]⟩ : Shape).Idx → EReal) (hne : ∀ i, ∃ r : ℝ, ne i = (r : EReal))
    (w1 : (⟨2, ![1024, 4096]⟩ : Shape).Idx → EReal) (b1 : (⟨1, ![4096]⟩ : Shape).Idx → EReal)
    (w2 : (⟨2, ![4096, 1024]⟩ : Shape).Idx → EReal) (b2 : (⟨1, ![1024]⟩ : Shape).Idx → EReal) :
    outK ne w1 b1 w2 b2 = outR ne w1 b1 w2 b2 := by
  funext j
  unfold outK outR
  congr 1
  funext k
  exact agg_eq _ (fun n => hne _) _

end Cert.Msg

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.KernelBlock.lean ====
/-
  What the kernel body leaves in the output block, read at an entry.

  The body stacks the four aggregates of its 64 rows into one [256, 1024] matrix (aggregate t of row r in matrix
  row 64·t + r), applies the two dense layers to all 256 rows at once, and stores the result as a [4, 64, 1024]
  block. So the block's entry (t, r, d) is the perceptron of aggregate t of the block's row r, at feature d.
-/
import proofs.«172449_j59313498358354_2_alg».proof.Proof.Gen.KernelIdeal.Frame
import proofs.«172449_j59313498358354_2_alg».proof.Proof.Spec
import proofs.«172449_j59313498358354_2_alg».proof.Proof.LibMatDot
import Idealize.ShloMosaic.Lib.Pipeline.Value
import Idealize.ShloMosaic.Lib.ValueIdx
import Idealize.ShloMosaic.Lib.ValueLayout

noncomputable section

open scoped BigOperators

namespace Cert.KernelIdeal.Block

open Cert.KernelIdeal Cert.KernelIdeal.Gen Idealize.ShloMosaic Idealize.ShloMosaic.ValueIdx
open Cert.Msg (three negThree eps zero kagg mlp)

/-! ## One node's slab of the input block -/

/-- The [64, 1, 1024] slab of node n, with its unit axis dropped, read at (r, k): the input block at (r, n, k). -/
theorem slot (n : Nat) (hn : n < 9) (inb : ∀ a, (![0, n, 0] : Fin 3 → Nat) a + S64x1x1024.size a ≤ S64x9x1024.size a)
    (x0 : Vec Ideal S64x9x1024 .f32) (r : Fin 64) (k : Fin 1024) :
    shapeCast S64x1024 (View.ld x0 (Rect.unit (s := S64x9x1024) ![0, n, 0] S64x1x1024.size inb)) shapeCasts_S64x1x1024_S64x1024 (ix2 r k)
      = x0 (ix3 r ⟨n, hn⟩ k) := by
  refine (shapeCast_apply _ shapeCasts_S64x1x1024_S64x1024 (ix2 r k) (ix3 r 0 k) ?_).trans ?_
  · rw [Shape.rowMajor_val_three, Shape.rowMajor_val_two]
    show (r.val * 1 + 0) * 1024 + k.val = r.val * 1024 + k.val
    omega
  · show x0 _ = x0 _
    refine congrArg x0 (funext fun a => Fin.ext ?_)
    match a with
    | ⟨0, _⟩ => show 0 + 1 * r.val = r.val; omega
    | ⟨1, _⟩ => show n + 1 * 0 = n; omega
    | ⟨2, _⟩ => show 0 + 1 * k.val = k.val; omega

/-! ## The body's pointwise pieces at an index -/

theorem pay2_at (v0 v4 v9 : Vec Ideal S64x1x1024 .f32) (i : S64x1024.Idx) :
    k0_pay2 (F := Ideal) v0 v4 v9 i
      = (shapeCast S64x1024 v0 shapeCasts_S64x1x1024_S64x1024 i * eps + shapeCast S64x1024 v4 shapeCasts_S64x1x1024_S64x1024 i * negThree)
        + shapeCast S64x1024 v9 shapeCasts_S64x1x1024_S64x1024 i * three := rfl

theorem pay3_at (v14 v18 v23 : Vec Ideal S64x1x1024 .f32) (i : S64x1024.Idx) :
    k0_pay3 (F := Ideal) v14 v18 v23 i
      = (shapeCast S64x1024 v14 shapeCasts_S64x1x1024_S64x1024 i * three + shapeCast S64x1024 v18 shapeCasts_S64x1x1024_S64x1024 i * three)
        + shapeCast S64x1024 v23 shapeCasts_S64x1x1024_S64x1024 i * eps := rfl

theorem pay4_at (v28 : Vec Ideal S64x1x1024 .f32) (i : S64x1024.Idx) :
    k0_pay4 (F := Ideal) v28 i = shapeCast S64x1024 v28 shapeCasts_S64x1x1024_S64x1024 i := rfl

theorem pay5_at (i : S64x1024.Idx) : k0_pay5 (F := Ideal) i = negThree := rfl

theorem pay6_at (v27 v29 v30 : FVec Ideal S64x1024 .f32) (v33 : Vec Ideal S64x1x1024 .f32) (i : S64x1024.Idx) :
    k0_pay6 (F := Ideal) v27 v29 v30 v33 i
      = (v27 i + v29 i * v30 i) + shapeCast S64x1024 v33 shapeCasts_S64x1x1024_S64x1024 i * three := rfl

theorem pay7_at (v38 v42 v47 v52 v57 : Vec Ideal S64x1x1024 .f32) (i : S64x1024.Idx) :
    k0_pay7 (F := Ideal) v38 v42 v47 v52 v57 i
      = (((shapeCast S64x1024 v38 shapeCasts_S64x1x1024_S64x1024 i * three + shapeCast S64x1024 v42 shapeCasts_S64x1x1024_S64x1024 i * three)
          + shapeCast S64x1024 v47 shapeCasts_S64x1x1024_S64x1024 i * eps)
          + shapeCast S64x1024 v52 shapeCasts_S64x1x1024_S64x1024 i * negThree)
        + shapeCast S64x1024 v57 shapeCasts_S64x1x1024_S64x1024 i * three := rfl

theorem pay8_at (v62 : Vec Ideal S64x1x1024 .f32) (i : S64x1024.Idx) :
    k0_pay8 (F := Ideal) v62 i = shapeCast S64x1024 v62 shapeCasts_S64x1x1024_S64x1024 i := rfl

/-! ## The four aggregates of the block's row r at feature k -/

variable (x0 : Vec Ideal S64x9x1024 .f32) (r : Fin 64) (k : Fin 1024)

/-- Receiving node 2: e 2 · ε + e 3 · (-3) + e 4 · 3. -/
theorem agg0 : k0_pay2 (F := Ideal) (View.ld x0 r0_0) (View.ld x0 r0_1) (View.ld x0 r0_2) (ix2 r k)
    = kagg (fun n => x0 (ix3 r n k)) 0 := by
  rw [pay2_at, slot 2 (by omega), slot 3 (by omega), slot 4 (by omega)]
  rfl

/-- Receiving node 4: e 2 · 3 + e 3 · 3 + e 4 · ε + e 5 · (-3) + e 6 · 3. -/
theorem agg1 : k0_pay6 (F := Ideal) (k0_pay3 (View.ld x0 r0_0) (View.ld x0 r0_1) (View.ld x0 r0_2)) (k0_pay4 (View.ld x0 r0_3))
      (k0_pay5 (F := Ideal)) (View.ld x0 r0_4) (ix2 r k)
    = kagg (fun n => x0 (ix3 r n k)) 1 := by
  rw [pay6_at, pay3_at, pay4_at, pay5_at, slot 2 (by omega), slot 3 (by omega), slot 4 (by omega), slot 5 (by omega), slot 6 (by omega)]
  rfl

/-- Receiving node 6: e 4 · 3 + e 5 · 3 + e 6 · ε + e 7 · (-3) + e 8 · 3. -/
theorem agg2 : k0_pay7 (F := Ideal) (View.ld x0 r0_2) (View.ld x0 r0_3) (View.ld x0 r0_4) (View.ld x0 r0_5) (View.ld x0 r0_6) (ix2 r k)
    = kagg (fun n => x0 (ix3 r n k)) 2 := by
  rw [pay7_at, slot 4 (by omega), slot 5 (by omega), slot 6 (by omega), slot 7 (by omega), slot 8 (by omega)]
  rfl

/-! ## The two matrix products' operand index maps -/

theorem first_l0 (j : S256x4096.Idx) (q : dot_S256x1024_S1024x4096_S256x4096_1_0_0_1_n_n.contr.Idx) : (dot_S256x1024_S1024x4096_S256x4096_1_0_0_1_n_n.lhsIdx j q 0).val = (j 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem first_l1 (j : S256x4096.Idx) (q : dot_S256x1024_S1024x4096_S256x4096_1_0_0_1_n_n.contr.Idx) : (dot_S256x1024_S1024x4096_S256x4096_1_0_0_1_n_n.lhsIdx j q 1).val = (q ⟨0, by decide⟩).val :=
  dot_S256x1024_S1024x4096_S256x4096_1_0_0_1_n_n.lhsIdx_val_of_single rfl j q
theorem first_r0 (j : S256x4096.Idx) (q : dot_S256x1024_S1024x4096_S256x4096_1_0_0_1_n_n.contr.Idx) : (dot_S256x1024_S1024x4096_S256x4096_1_0_0_1_n_n.rhsIdx j q 0).val = (q ⟨0, by decide⟩).val :=
  dot_S256x1024_S1024x4096_S256x4096_1_0_0_1_n_n.rhsIdx_val_of_single rfl j q
theorem first_r1 (j : S256x4096.Idx) (q : dot_S256x1024_S1024x4096_S256x4096_1_0_0_1_n_n.contr.Idx) : (dot_S256x1024_S1024x4096_S256x4096_1_0_0_1_n_n.rhsIdx j q 1).val = (j 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

theorem second_l0 (j : S256x1024.Idx) (q : dot_S256x4096_S4096x1024_S256x1024_1_0_0_1_n_n.contr.Idx) : (dot_S256x4096_S4096x1024_S256x1024_1_0_0_1_n_n.lhsIdx j q 0).val = (j 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem second_l1 (j : S256x1024.Idx) (q : dot_S256x4096_S4096x1024_S256x1024_1_0_0_1_n_n.contr.Idx) : (dot_S256x4096_S4096x1024_S256x1024_1_0_0_1_n_n.lhsIdx j q 1).val = (q ⟨0, by decide⟩).val :=
  dot_S256x4096_S4096x1024_S256x1024_1_0_0_1_n_n.lhsIdx_val_of_single rfl j q
theorem second_r0 (j : S256x1024.Idx) (q : dot_S256x4096_S4096x1024_S256x1024_1_0_0_1_n_n.contr.Idx) : (dot_S256x4096_S4096x1024_S256x1024_1_0_0_1_n_n.rhsIdx j q 0).val = (q ⟨0, by decide⟩).val :=
  dot_S256x4096_S4096x1024_S256x1024_1_0_0_1_n_n.rhsIdx_val_of_single rfl j q
theorem second_r1 (j : S256x1024.Idx) (q : dot_S256x4096_S4096x1024_S256x1024_1_0_0_1_n_n.contr.Idx) : (dot_S256x4096_S4096x1024_S256x1024_1_0_0_1_n_n.rhsIdx j q 1).val = (j 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-! ## The stack of the four aggregates -/

/-- The four [64, 1024] pieces laid end to end along the rows, read at row 64·t + r: piece t at row r. -/
theorem stack_at (v : Fin 4 → FVec Ideal S64x1024 .f32) (t : Fin 4) (r : Fin 64) (k : Fin 1024) (p : Fin 256)
    (hp : p.val = t.val * 64 + r.val) :
    concatenate S256x1024 0 [⟨S64x1024, v 0⟩, ⟨S64x1024, v 1⟩, ⟨S64x1024, v 2⟩, ⟨S64x1024, v 3⟩]
      concatenates_S64x1024_S64x1024_S64x1024_S64x1024_S256x1024_d0 (ix2 p k) = v t (ix2 r k) := by
  have ht := t.isLt
  have hr := r.isLt
  exact concatenate_ofFn_apply (t := S256x1024) (s₁ := S64x1024) (0 : Fin 2) v
    concatenates_S64x1024_S64x1024_S64x1024_S64x1024_S256x1024_d0 rfl 64 rfl (ix2 p k) t
    (by show p.val / 64 = t.val; omega) (ix2 r k) (by show r.val = p.val % 64; omega)
    (fun b hb => by
      match b with
      | ⟨0, _⟩ => exact absurd rfl hb
      | ⟨1, _⟩ => rfl)

/-! ## The body's last piece: the stack, the two dense layers, the block's layout -/

/-- The four aggregates as a family indexed by the receiving node's number. -/
def pieces (a b c e : FVec Ideal S64x1024 .f32) : Fin 4 → FVec Ideal S64x1024 .f32
  | ⟨0, _⟩ => a
  | ⟨1, _⟩ => b
  | ⟨2, _⟩ => c
  | ⟨3, _⟩ => e

/-- The aggregate at receiving node 8, which the body forms right before stacking: e 6 · 3 + e 7 · 3 + e 8 · ε. -/
def last (v63 : FVec Ideal S64x1024 .f32) (v66 v71 : Vec Ideal S64x1x1024 .f32) : FVec Ideal S64x1024 .f32 := fun i =>
  (v63 i * three + shapeCast S64x1024 v66 shapeCasts_S64x1x1024_S64x1024 i * three)
    + shapeCast S64x1024 v71 shapeCasts_S64x1x1024_S64x1024 i * eps

/-- A bias vector laid as one row and repeated over the rows, read at (p, q): the bias at q. -/
theorem bias_at {a b : Nat} (v : FVec Ideal ⟨1, ![b]⟩ .f32) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

theorem pay1_at (v13 v37 v61 v63 : FVec Ideal S64x1024 .f32) (v66 v71 : Vec Ideal S64x1x1024 .f32)
    (v78 : Vec Ideal S1024x4096 .bf16) (v81 : Vec Ideal S4096 .f32) (v88 : Vec Ideal S4096x1024 .bf16) (v91 : Vec Ideal S1024 .f32)
    (t : Fin 4) (r : Fin 64) (d : Fin 1024) :
    k0_pay1 (F := Ideal) v13 v37 v61 v63 v66 v71 v78 v81 v88 v91 (ix3 t r d)
      = mlp (fun k => pieces v13 v37 v61 (last v63 v66 v71) t (ix2 r k)) v78 v81 v88 v91 d := by
  have ht := t.isLt
  have hr := r.isLt
  unfold k0_pay1
  refine (shapeCast_apply _ shapeCasts_S256x1024_S4x64x1024 (ix3 t r d) (ix2 (⟨t.val * 64 + r.val, by omega⟩ : Fin 256) d) ?_).trans ?_
  · rw [Shape.rowMajor_val_two, Shape.rowMajor_val_three]
    show (t.val * 64 + r.val) * 1024 + d.val = (t.val * 64 + r.val) * 1024 + d.val
    rfl
  · unfold mlp
    rw [addf_apply]
    refine congrArg₂ (· + ·) ?_ (bias_at v91 _ _ _ d)
    refine (mat_dot_zero dot_S256x4096_S4096x1024_S256x1024_1_0_0_1_n_n none rfl rfl second_l0 second_l1 second_r0 second_r1 _ _ _ d).trans
      (Finset.sum_congr rfl fun h _ => ?_)
    rw [shapeCast_self v88, truncf_apply, maximumf_apply, addf_apply, broadcast_apply]
    refine congrArg₂ (· * ·) (congrArg₂ max (congrArg₂ (· + ·) ?_ (bias_at v81 _ _ _ h)) rfl) rfl
    refine (mat_dot_zero dot_S256x1024_S1024x4096_S256x4096_1_0_0_1_n_n none rfl rfl first_l0 first_l1 first_r0 first_r1 _ _ _ h).trans
      (Finset.sum_congr rfl fun k _ => ?_)
    rw [shapeCast_self v78, truncf_apply]
    exact congrArg (· * v78 (ix2 k h)) (stack_at (pieces v13 v37 v61 (last v63 v66 v71)) t r k _ rfl)

/-! ## The stored block at an entry -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The aggregate at receiving node 8 of the block's row r at feature k. -/
theorem agg3 : last (k0_pay8 (F := Ideal) (View.ld x0 r0_4)) (View.ld x0 r0_5) (View.ld x0 r0_6) (ix2 r k)
    = kagg (fun n => x0 (ix3 r n k)) 3 := by
  unfold last
  rw [pay8_at, slot 6 (by omega), slot 7 (by omega), slot 8 (by omega)]
  rfl

/-- Entry (t, r, d) of the block the body stores, from the input blocks: the perceptron, with the weights and
    biases as staged, of aggregate t of the node-embedding block's row r, at feature d. -/
theorem out_block (x0 : Vec Ideal S64x9x1024 .f32) (x1 : Vec Ideal S1024x4096 .bf16) (x2 : Vec Ideal S4096 .f32)
    (x3 : Vec Ideal S4096x1024 .bf16) (x4 : Vec Ideal S1024 .f32) (t : Fin 4) (r : Fin 64) (d : Fin 1024) :
    out0_5 (F := Ideal) x0 x1 x2 x3 x4 (ix3 t r d)
      = Cert.Msg.mlp (fun k => Cert.Msg.kagg (fun n => x0 (ix3 r n k)) t) x1 x2 x3 x4 d := by
  unfold out0_5
  rw [View.canon_unit_zero zeros3]
  rw [View.ld_unit_zero (S := S1024x4096) zeros2, View.ld_unit_zero (S := S4096) zeros1,
    View.ld_unit_zero (S := S4096x1024) zeros2, View.ld_unit_zero (S := S1024) zeros1]
  refine (pay1_at _ _ _ _ _ _ x1 x2 x3 x4 t r d).trans ?_
  refine congrArg (fun x => mlp x x1 x2 x3 x4 d) (funext fun k => ?_)
  match t with
  | ⟨0, _⟩ => exact agg0 x0 r k
  | ⟨1, _⟩ => exact agg1 x0 r k
  | ⟨2, _⟩ => exact agg2 x0 r k
  | ⟨3, _⟩ => exact agg3 x0 r k

end Cert.KernelIdeal.Block

end
-- ==== Proof.KernelArray.lean ====
/-
  From the kernel's blocks to its whole result array.

  The grid has 128 points. Point t reads rows 64·t … 64·t + 63 of the node embeddings and the two weight
  matrices and two bias vectors whole, and writes rows 64·t … 64·t + 63 of each of the four planes of the
  result. Entry (s, r, d) of the block a point writes is the perceptron of aggregate s of the block's row r,
  so it is entry (s, 64·t + r, d) of the array `outK` of the arrays the region finds; the 128 row ranges fill
  the 8192 rows, so the result array is `outK` everywhere. The two weight matrices reach the region through a
  change of float format, which on extended reals is the identity, so the arrays the region finds are the
  arguments.
-/
import proofs.«172449_j59313498358354_2_alg».proof.Proof.Gen.KernelIdeal.Value
import proofs.«172449_j59313498358354_2_alg».proof.Proof.KernelBlock
import proofs.«172449_j59313498358354_2_alg».proof.Proof.Spec
import Idealize.ShloMosaic.Lib.Pipeline.Value
import Idealize.ShloMosaic.Lib.ValueIdx
import Idealize.ShloMosaic.Lib.StableHlo.Run

noncomputable section

namespace Cert.KernelIdeal.ArrValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array as one function of the five arrays the region finds: the perceptron of each row's
    aggregates. -/
abbrev G (c : Dev nD) : S4x8192x1024.Idx → EReal :=
  Cert.Msg.outK (V m c main_arg0 : S8192x9x1024.Idx → EReal) (V m c main_v0 : S1024x4096.Idx → EReal)
    (V m c main_arg2 : S4096.Idx → EReal) (V m c main_v1 : S4096x1024.Idx → EReal) (V m c main_arg4 : S1024.Idx → EReal)

/-- The block indices at each grid point, decided over the 128 points: the embeddings' block and the result's
    block move with the point along the row axis; the weights and biases are one block each. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = 0 ∧ win0_5.index t (1 : Fin 3) = t.val ∧ win0_5.index t (2 : Fin 3) = 0 :=
  (by decide +kernel : ∀ t : Fin grid0.N, _)

/-- Row r of the embeddings' block at point t is row 64·t + r of the array. -/
theorem blk0_apply (c : Dev nD) (t : Fin cfg0.N) (r : Fin 64) (n : Fin 9) (k : Fin 1024) (R : Fin 8192)
    (hR : R.val = t.val * 64 + r.val) :
    (iblk m c 0 t : Vec Ideal S64x9x1024 .f32) (ix3 r n k) = (V m c main_arg0 : S8192x9x1024.Idx → EReal) (ix3 R n k) := by
  obtain ⟨e0, e1, e2, -⟩ := idx_facts t
  show V m c main_arg0 (((cfg0.win 0).blk t).view.emb (ix3 r n k)) = V m c main_arg0 (ix3 R n k)
  refine congrArg _ (funext fun a => Fin.ext ?_)
  match a with
  | ⟨0, _⟩ => show win0_0.index t (0 : Fin 3) * 64 + 1 * r.val = R.val; omega
  | ⟨1, _⟩ => show win0_0.index t (1 : Fin 3) * 9 + 1 * n.val = n.val; omega
  | ⟨2, _⟩ => show win0_0.index t (2 : Fin 3) * 1024 + 1 * k.val = k.val; omega

/-- The first weight matrix is one block: at every point the block is the whole array. -/
theorem blk1_eq (c : Dev nD) (t : Fin cfg0.N) :
    (iblk m c 1 t : Vec Ideal S1024x4096 .bf16) = (V m c main_v0 : S1024x4096.Idx → EReal) := by
  obtain ⟨-, -, -, e0, e1, -⟩ := idx_facts t
  funext y
  show V m c main_v0 (((cfg0.win 1).blk t).view.emb y) = V m c main_v0 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 4096 + 1 * (y 1).val = (y 1).val; omega

/-- So is the first bias vector. -/
theorem blk2_eq (c : Dev nD) (t : Fin cfg0.N) :
    (iblk m c 2 t : Vec Ideal S4096 .f32) = (V m c main_arg2 : S4096.Idx → EReal) := by
  obtain ⟨-, -, -, -, -, e0, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 1) * 4096 + 1 * (y 0).val = (y 0).val; omega

/-- So is the second weight matrix. -/
theorem blk3_eq (c : Dev nD) (t : Fin cfg0.N) :
    (iblk m c 3 t : Vec Ideal S4096x1024 .bf16) = (V m c main_v1 : S4096x1024.Idx → EReal) := by
  obtain ⟨-, -, -, -, -, -, e0, e1, -⟩ := idx_facts t
  funext y
  show V m c main_v1 (((cfg0.win 3).blk t).view.emb y) = V m c main_v1 y
  refine congrArg _ (funext fun a => Fin.ext ?_)
  match a with
  | ⟨0, _⟩ => show win0_3.index t (0 : Fin 2) * 4096 + 1 * (y 0).val = (y 0).val; omega
  | ⟨1, _⟩ => show win0_3.index t (1 : Fin 2) * 1024 + 1 * (y 1).val = (y 1).val; omega

/-- So is the second bias vector. -/
theorem blk4_eq (c : Dev nD) (t : Fin cfg0.N) :
    (iblk m c 4 t : Vec Ideal S1024 .f32) = (V m c main_arg4 : S1024.Idx → EReal) := by
  obtain ⟨-, -, -, -, -, -, -, -, e0, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 1) * 1024 + 1 * (y 0).val = (y 0).val; omega

/-- The perceptron of row r's aggregate, computed from blocks whose row r is row R of the embeddings and whose
    weights and biases are the arrays', is entry (s, R, d) of `outK` of the arrays. -/
theorem point_eq (x0 : Vec Ideal S64x9x1024 .f32) (x1 : Vec Ideal S1024x4096 .bf16) (x2 : Vec Ideal S4096 .f32)
    (x3 : Vec Ideal S4096x1024 .bf16) (x4 : Vec Ideal S1024 .f32)
    (a0 : S8192x9x1024.Idx → EReal) (a1 : S1024x4096.Idx → EReal) (a2 : S4096.Idx → EReal)
    (a3 : S4096x1024.Idx → EReal) (a4 : S1024.Idx → EReal)
    (s : Fin 4) (r : Fin 64) (d : Fin 1024) (R : Fin 8192)
    (h0 : ∀ n k, x0 (ix3 r n k) = a0 (ix3 R n k)) (h1 : x1 = a1) (h2 : x2 = a2) (h3 : x3 = a3) (h4 : x4 = a4) :
    Cert.Msg.mlp (fun k => Cert.Msg.kagg (fun n => x0 (ix3 r n k)) s) x1 x2 x3 x4 d
      = Cert.Msg.outK a0 a1 a2 a3 a4 (ix3 s R d) := by
  subst h1 h2 h3 h4
  show _ = Cert.Msg.mlp (fun k => Cert.Msg.kagg (fun n => a0 (ix3 R n k)) s) x1 x2 x3 x4 d
  exact congrArg (fun f => Cert.Msg.mlp f x1 x2 x3 x4 d)
    (funext fun k => congrArg (fun e => Cert.Msg.kagg e s) (funext fun n => h0 n k))

/-- What point t writes back is its block of `G`: rows 64·t … 64·t + 63 of each of the four planes. -/
theorem flushed_eq (c : Dev nD) (t : Fin cfg0.N) :
    (dats m 0 c).flushed 5 t = ((cfg0.win 5).blk t).view.read (Elt Ideal) (G m c) := by
  rw [Value.flushed5]
  refine funext fun (j : S4x64x1024.Idx) => ?_
  obtain ⟨s, r, d, rfl⟩ : ∃ (s : Fin 4) (r : Fin 64) (d : Fin 1024), j = ix3 s r d := ⟨j 0, j 1, j 2, eq_ix3 j⟩
  obtain ⟨-, -, -, -, -, -, -, -, -, q0, q1, q2⟩ := idx_facts t
  have ht : t.val < 128 := lt_of_lt_of_eq t.isLt (N_0 : cfg0.N = 128)
  have hr : r.val < 64 := r.isLt
  have hb : t.val * 64 + r.val < 8192 := by omega
  show out0_5 (iblk m c 0 t) (iblk m c 1 t) (iblk m c 2 t) (iblk m c 3 t) (iblk m c 4 t) (ix3 s r d)
    = G m c (((cfg0.win 5).blk t).view.emb (ix3 s r d))
  refine (Cert.KernelIdeal.Block.out_block (iblk m c 0 t) (iblk m c 1 t) (iblk m c 2 t) (iblk m c 3 t) (iblk m c 4 t) s r d).trans ?_
  refine (point_eq (iblk m c 0 t) (iblk m c 1 t) (iblk m c 2 t) (iblk m c 3 t) (iblk m c 4 t)
    (V m c main_arg0) (V m c main_v0) (V m c main_arg2) (V m c main_v1) (V m c main_arg4) s r d ⟨t.val * 64 + r.val, hb⟩
    (fun n k => blk0_apply m c t r n k ⟨t.val * 64 + r.val, hb⟩ rfl)
    (blk1_eq m c t) (blk2_eq m c t) (blk3_eq m c t) (blk4_eq m c t)).trans ?_
  refine congrArg (G m c) (funext fun a => Fin.ext ?_)
  match a with
  | ⟨0, _⟩ => show s.val = win0_5.index t (0 : Fin 3) * 4 + 1 * s.val; omega
  | ⟨1, _⟩ => show t.val * 64 + r.val = win0_5.index t (1 : Fin 3) * 64 + 1 * r.val; omega
  | ⟨2, _⟩ => show d.val = win0_5.index t (2 : Fin 3) * 1024 + 1 * d.val; omega

/-- An index of the result lies in point t's block iff each coordinate lies in the block's range on its axis. -/
theorem mem_blk (t : Fin cfg0.N) (i : S4x8192x1024.Idx) :
    i ∈ ((cfg0.win 5).blk t).view.set ↔ ∀ a : Fin 3, win0_5.index t a * S4x64x1024.size a ≤ (i a).val
      ∧ (i a).val < win0_5.index t a * S4x64x1024.size a + S4x64x1024.size a := by
  show i ∈ ((View.whole main_v2).slice (win0_5.rect t)).set ↔ _
  rw [View.set_slice_whole, Rect.mem_set_unit]
  exact Iff.rfl

/-- Every index of the result lies in some point's block: row b is written by point b / 64. -/
theorem cover (i : S4x8192x1024.Idx) :
    ∃ t : Fin cfg0.N, (cfg0.win 5).flush t = true ∧ i ∈ ((cfg0.win 5).blk t).view.set := by
  have h0 : (i 0).val < 4 := (i 0).isLt
  have h1 : (i 1).val < 8192 := (i 1).isLt
  have h2 : (i 2).val < 1024 := (i 2).isLt
  have hN : cfg0.N = 128 := N_0
  have hq : (i 1).val / 64 < cfg0.N := by rw [hN]; omega
  obtain ⟨-, -, -, -, -, -, -, -, -, q0, q1, q2⟩ := idx_facts ⟨(i 1).val / 64, hq⟩
  have q1' : win0_5.index ⟨(i 1).val / 64, hq⟩ (1 : Fin 3) = (i 1).val / 64 := q1
  refine ⟨⟨(i 1).val / 64, hq⟩, flush0_5 _, ?_⟩
  rw [mem_blk]
  intro a
  match a with
  | ⟨0, _⟩ =>
    show win0_5.index ⟨(i 1).val / 64, hq⟩ (0 : Fin 3) * 4 ≤ (i 0).val
      ∧ (i 0).val < win0_5.index ⟨(i 1).val / 64, hq⟩ (0 : Fin 3) * 4 + 4
    omega
  | ⟨1, _⟩ =>
    show win0_5.index ⟨(i 1).val / 64, hq⟩ (1 : Fin 3) * 64 ≤ (i 1).val
      ∧ (i 1).val < win0_5.index ⟨(i 1).val / 64, hq⟩ (1 : Fin 3) * 64 + 64
    omega
  | ⟨2, _⟩ =>
    show win0_5.index ⟨(i 1).val / 64, hq⟩ (2 : Fin 3) * 1024 ≤ (i 2).val
      ∧ (i 2).val < win0_5.index ⟨(i 1).val / 64, hq⟩ (2 : Fin 3) * 1024 + 1024
    omega

/-- So the result array ends holding `G`. -/
theorem final (c : Dev nD) : (dats m 0 c).arrAt 5 cfg0.N = G m c :=
  (dats m 0 c).arrAt_eq_of_cover 5 (G m c) (fun t _ => flushed_eq m c t) cover

/-- The first weight matrix as the region finds it is the argument: the change of float format before the
    region is the identity on extended reals. -/
theorem V_main_v0 (c : Dev nD) :
    (V m c main_v0 : S1024x4096.Idx → EReal) = (m ((c : Thread nD τ).loc main_arg1) : S1024x4096.Idx → EReal) := by
  have e : @Eq (S1024x4096.Idx → EReal) (V m c main_v0)
      (truncf (F := Ideal) (s := S1024x4096) (φ := .f32) .bf16 (m ((c : Thread nD τ).loc main_arg1)) bitsLt_bf16_f32) := by
    dsimp only [Gen.V, Gen.hostOps0]; after_results
  rw [e]
  exact funext fun i => rfl

/-- So is the second weight matrix. -/
theorem V_main_v1 (c : Dev nD) :
    (V m c main_v1 : S4096x1024.Idx → EReal) = (m ((c : Thread nD τ).loc main_arg3) : S4096x1024.Idx → EReal) := by
  have e : @Eq (S4096x1024.Idx → EReal) (V m c main_v1)
      (truncf (F := Ideal) (s := S4096x1024) (φ := .f32) .bf16 (m ((c : Thread nD τ).loc main_arg3)) bitsLt_bf16_f32) := by
    dsimp only [Gen.V, Gen.hostOps0]; after_results
  rw [e]
  exact funext fun i => rfl

/-- `G` of the arrays the region finds is `outK` of the arguments. -/
theorem G_eq (c : Dev nD) : G m c = Cert.Msg.outK (m ((c : Thread nD τ).loc main_arg0)) (m ((c : Thread nD τ).loc main_arg1))
    (m ((c : Thread nD τ).loc main_arg2)) (m ((c : Thread nD τ).loc main_arg3)) (m ((c : Thread nD τ).loc main_arg4)) := by
  show Cert.Msg.outK _ _ _ _ _ = Cert.Msg.outK _ _ _ _ _
  rw [V_main_arg0 m c, V_main_v0 m c, V_main_arg2 m c, V_main_v1 m c, V_main_arg4 m c]

/-- The run, read: the result array is `outK` of the argument arrays, the arguments unchanged. -/
theorem run : θ_run (defs (F := Ideal)) (onTc (τ := τ) (main (F := Ideal))) ⟨m, fun _ => 0, ρ⟩ fun r => ∀ c : Dev nD,
      r.2.mem ((c : Thread nD τ).loc main_v2) = Cert.Msg.outK (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (G_eq m c)), (h c).2⟩) (Value.run_blocks m ρ)

end Cert.KernelIdeal.ArrValue

end
-- ==== Proof.RefTermsA.lean ====
/-
  The reference's per-node results for receiving nodes 2 and 4, each read at an entry.

  For a receiving node the reference forms the aggregate edge by edge over the whole batch, then applies the two
  dense layers; entry (b, d) of that [8192, 1024] result is the perceptron of row b's aggregate at feature d.
-/
import proofs.«172449_j59313498358354_2_alg».proof.Proof.Gen.ReferenceIdeal.Read
import proofs.«172449_j59313498358354_2_alg».proof.Proof.Spec

noncomputable section

namespace Cert.ReferenceIdeal.RefValueA

open Cert.ReferenceIdeal Cert.ReferenceIdeal.Read Idealize.ShloMosaic Idealize.ShloMosaic.ValueIdx

variable (x0 : (⟨S8192x9x1024, .f32⟩ : BufTy).Contents (Elt Ideal)) (x1 : (⟨S1024x4096, .f32⟩ : BufTy).Contents (Elt Ideal))
  (x2 : (⟨S4096, .f32⟩ : BufTy).Contents (Elt Ideal)) (x3 : (⟨S4096x1024, .f32⟩ : BufTy).Contents (Elt Ideal))
  (x4 : (⟨S1024, .f32⟩ : BufTy).Contents (Elt Ideal))

/-! ## The slices of the embeddings

Each is node n's [8192, 1, 1024] slice flattened to [8192, 1024]; its entry (b, k) sits at flat position
b · 1024 + k, which the slice reads back as row b, feature k of node n. -/

/-- Node 2's slice, read at (b, k). -/
theorem slot_v1 (b : Fin 8192) (k : Fin 1024) :
    val_main_v1 (F := Ideal) x0 (ix2 b k) = x0 (ix3 b 2 k) := by
  rw [val_main_v1_apply, val_main_v0_apply]
  refine congrArg x0 (funext fun a => Fin.ext ?_)
  have hb := b.isLt
  have hk := k.isLt
  match a with
  | ⟨0, _⟩ => show (b.val * 1024 + k.val) / 1024 = b.val; omega
  | ⟨1, _⟩ => rfl
  | ⟨2, _⟩ => show (b.val * 1024 + k.val) % 1024 = k.val; omega

/-- Node 3's slice, read at (b, k). -/
theorem slot_v3 (b : Fin 8192) (k : Fin 1024) :
    val_main_v3 (F := Ideal) x0 (ix2 b k) = x0 (ix3 b 3 k) := by
  rw [val_main_v3_apply, val_main_v2_apply]
  refine congrArg x0 (funext fun a => Fin.ext ?_)
  have hb := b.isLt
  have hk := k.isLt
  match a with
  | ⟨0, _⟩ => show (b.val * 1024 + k.val) / 1024 = b.val; omega
  | ⟨1, _⟩ => rfl
  | ⟨2, _⟩ => show (b.val * 1024 + k.val) % 1024 = k.val; omega

/-- Node 4's slice, read at (b, k). -/
theorem slot_v5 (b : Fin 8192) (k : Fin 1024) :
    val_main_v5 (F := Ideal) x0 (ix2 b k) = x0 (ix3 b 4 k) := by
  rw [val_main_v5_apply, val_main_v4_apply]
  refine congrArg x0 (funext fun a => Fin.ext ?_)
  have hb := b.isLt
  have hk := k.isLt
  match a with
  | ⟨0, _⟩ => show (b.val * 1024 + k.val) / 1024 = b.val; omega
  | ⟨1, _⟩ => rfl
  | ⟨2, _⟩ => show (b.val * 1024 + k.val) % 1024 = k.val; omega

/-- Node 5's slice, read at (b, k). -/
theorem slot_v11 (b : Fin 8192) (k : Fin 1024) :
    val_main_v11 (F := Ideal) x0 (ix2 b k) = x0 (ix3 b 5 k) := by
  rw [val_main_v11_apply, val_main_v10_apply]
  refine congrArg x0 (funext fun a => Fin.ext ?_)
  have hb := b.isLt
  have hk := k.isLt
  match a with
  | ⟨0, _⟩ => show (b.val * 1024 + k.val) / 1024 = b.val; omega
  | ⟨1, _⟩ => rfl
  | ⟨2, _⟩ => show (b.val * 1024 + k.val) % 1024 = k.val; omega

/-- Node 6's slice, read at (b, k). -/
theorem slot_v13 (b : Fin 8192) (k : Fin 1024) :
    val_main_v13 (F := Ideal) x0 (ix2 b k) = x0 (ix3 b 6 k) := by
  rw [val_main_v13_apply, val_main_v12_apply]
  refine congrArg x0 (funext fun a => Fin.ext ?_)
  have hb := b.isLt
  have hk := k.isLt
  match a with
  | ⟨0, _⟩ => show (b.val * 1024 + k.val) / 1024 = b.val; omega
  | ⟨1, _⟩ => rfl
  | ⟨2, _⟩ => show (b.val * 1024 + k.val) % 1024 = k.val; omega

/-- Node 2's slice again (the self term of receiving node 2), read at (b, k). -/
theorem slot_v29 (b : Fin 8192) (k : Fin 1024) :
    val_main_v29 (F := Ideal) x0 (ix2 b k) = x0 (ix3 b 2 k) := by
  rw [val_main_v29_apply, val_main_v28_apply]
  refine congrArg x0 (funext fun a => Fin.ext ?_)
  have hb := b.isLt
  have hk := k.isLt
  match a with
  | ⟨0, _⟩ => show (b.val * 1024 + k.val) / 1024 = b.val; omega
  | ⟨1, _⟩ => rfl
  | ⟨2, _⟩ => show (b.val * 1024 + k.val) % 1024 = k.val; omega

/-- Node 4's slice again (the self term of receiving node 4), read at (b, k). -/
theorem slot_v48 (b : Fin 8192) (k : Fin 1024) :
    val_main_v48 (F := Ideal) x0 (ix2 b k) = x0 (ix3 b 4 k) := by
  rw [val_main_v48_apply, val_main_v47_apply]
  refine congrArg x0 (funext fun a => Fin.ext ?_)
  have hb := b.isLt
  have hk := k.isLt
  match a with
  | ⟨0, _⟩ => show (b.val * 1024 + k.val) / 1024 = b.val; omega
  | ⟨1, _⟩ => rfl
  | ⟨2, _⟩ => show (b.val * 1024 + k.val) % 1024 = k.val; omega

/-! ## The aggregates -/

/-- The aggregate at receiving node 2, entry (b, k): 3 · (0 + (e 4 - e 3)) + e 2 · ε. -/
theorem agg_v32 (b : Fin 8192) (k : Fin 1024) :
    val_main_v32 (F := Ideal) x0 (ix2 b k) = Cert.Msg.ragg (fun n => x0 (ix3 b n k)) 0 := by
  rw [val_main_v32_apply, val_main_v27_apply, val_main_v31_apply, val_main_v25_apply, val_main_v7_apply,
    val_main_v26_apply, val_main_cst_0_apply, val_main_v24_apply, val_main_cst_apply,
    val_main_v30_apply, val_main_cst_1_apply, slot_v5, slot_v3, slot_v29]
  rfl

/-- The aggregate at receiving node 4, entry (b, k): 3 · ((0 + (e 2 + e 3)) + (e 6 - e 5)) + e 4 · ε. -/
theorem agg_v51 (b : Fin 8192) (k : Fin 1024) :
    val_main_v51 (F := Ideal) x0 (ix2 b k) = Cert.Msg.ragg (fun n => x0 (ix3 b n k)) 1 := by
  rw [val_main_v51_apply, val_main_v46_apply, val_main_v50_apply, val_main_v44_apply, val_main_v43_apply,
    val_main_v6_apply, val_main_v15_apply,
    val_main_v45_apply, val_main_cst_3_apply, val_main_v42_apply, val_main_cst_2_apply,
    val_main_v49_apply, val_main_cst_4_apply, slot_v1, slot_v3, slot_v13, slot_v11, slot_v48]
  rfl

/-! ## The two dense layers -/

/-- The first layer's bias, broadcast over the batch, read at (b, h). -/
theorem bias_v35 (b : Fin 8192) (h : Fin 4096) :
    val_main_v35 (F := Ideal) x2 (ix2 b h) = x2 (ix1 h) := by
  rw [val_main_v35_apply, val_main_v34_apply]
  refine congrArg x2 (funext fun a => Fin.ext ?_)
  match a with
  | ⟨0, _⟩ => rfl

/-- The second layer's bias, broadcast over the batch, read at (b, d). -/
theorem bias_v40 (b : Fin 8192) (d : Fin 1024) :
    val_main_v40 (F := Ideal) x4 (ix2 b d) = x4 (ix1 d) := by
  rw [val_main_v40_apply, val_main_v39_apply]
  refine congrArg x4 (funext fun a => Fin.ext ?_)
  match a with
  | ⟨0, _⟩ => rfl

/-- The hidden layer before the rectifier at receiving node 2, entry (b, h). -/
theorem hidden_v36 (b : Fin 8192) (h : Fin 4096) :
    val_main_v36 (F := Ideal) x0 x1 x2 (ix2 b h)
      = (∑ k : Fin 1024, Cert.Msg.ragg (fun n => x0 (ix3 b n k)) 0 * x1 (ix2 k h)) + x2 (ix1 h) := by
  rw [val_main_v36_apply, val_main_v33_apply, bias_v35, Ideal.addf_def]
  refine congrArg (· + x2 (ix1 h)) (Finset.sum_congr rfl fun k _ => ?_)
  have hl : lidx_main_v33 (ix2 b h) k = ix2 b k := funext fun a => Fin.ext (by
    match a with
    | ⟨0, _⟩ => rfl
    | ⟨1, _⟩ => rfl)
  have hr : ridx_main_v33 (ix2 b h) k = ix2 k h := funext fun a => Fin.ext (by
    match a with
    | ⟨0, _⟩ => rfl
    | ⟨1, _⟩ => rfl)
  rw [hl, hr, agg_v32]

/-- Receiving node 2 (term 0). -/
theorem term0 (b : Fin 8192) (d : Fin 1024) :
    val_main_v41 (F := Ideal) x0 x1 x2 x3 x4 (ix2 b d)
      = Cert.Msg.mlp (fun k => Cert.Msg.ragg (fun n => x0 (ix3 b n k)) 0) x1 x2 x3 x4 d := by
  rw [val_main_v41_apply, val_main_v38_apply, bias_v40, Ideal.addf_def]
  unfold Cert.Msg.mlp
  refine congrArg (· + x4 (ix1 d)) (Finset.sum_congr rfl fun h _ => ?_)
  have hl : lidx_main_v38 (ix2 b d) h = ix2 b h := funext fun a => Fin.ext (by
    match a with
    | ⟨0, _⟩ => rfl
    | ⟨1, _⟩ => rfl)
  have hr : ridx_main_v38 (ix2 b d) h = ix2 h d := funext fun a => Fin.ext (by
    match a with
    | ⟨0, _⟩ => rfl
    | ⟨1, _⟩ => rfl)
  rw [hl, hr, val_main_v37_apply, hidden_v36, val_main_call0_v0_apply, val_main_call0_cst_apply]
  rfl

/-- The first layer's bias as broadcast for receiving node 4, read at (b, h). -/
theorem bias_v54 (b : Fin 8192) (h : Fin 4096) :
    val_main_v54 (F := Ideal) x2 (ix2 b h) = x2 (ix1 h) := by
  rw [val_main_v54_apply, val_main_v53_apply]
  refine congrArg x2 (funext fun a => Fin.ext ?_)
  match a with
  | ⟨0, _⟩ => rfl

/-- The second layer's bias as broadcast for receiving node 4, read at (b, d). -/
theorem bias_v59 (b : Fin 8192) (d : Fin 1024) :
    val_main_v59 (F := Ideal) x4 (ix2 b d) = x4 (ix1 d) := by
  rw [val_main_v59_apply, val_main_v58_apply]
  refine congrArg x4 (funext fun a => Fin.ext ?_)
  match a with
  | ⟨0, _⟩ => rfl

/-- The hidden layer before the rectifier at receiving node 4, entry (b, h). -/
theorem hidden_v55 (b : Fin 8192) (h : Fin 4096) :
    val_main_v55 (F := Ideal) x0 x1 x2 (ix2 b h)
      = (∑ k : Fin 1024, Cert.Msg.ragg (fun n => x0 (ix3 b n k)) 1 * x1 (ix2 k h)) + x2 (ix1 h) := by
  rw [val_main_v55_apply, val_main_v52_apply, bias_v54, Ideal.addf_def]
  refine congrArg (· + x2 (ix1 h)) (Finset.sum_congr rfl fun k _ => ?_)
  have hl : lidx_main_v52 (ix2 b h) k = ix2 b k := funext fun a => Fin.ext (by
    match a with
    | ⟨0, _⟩ => rfl
    | ⟨1, _⟩ => rfl)
  have hr : ridx_main_v52 (ix2 b h) k = ix2 k h := funext fun a => Fin.ext (by
    match a with
    | ⟨0, _⟩ => rfl
    | ⟨1, _⟩ => rfl)
  rw [hl, hr, agg_v51]

/-- Receiving node 4 (term 1). -/
theorem term1 (b : Fin 8192) (d : Fin 1024) :
    val_main_v60 (F := Ideal) x0 x1 x2 x3 x4 (ix2 b d)
      = Cert.Msg.mlp (fun k => Cert.Msg.ragg (fun n => x0 (ix3 b n k)) 1) x1 x2 x3 x4 d := by
  rw [val_main_v60_apply, val_main_v57_apply, bias_v59, Ideal.addf_def]
  unfold Cert.Msg.mlp
  refine congrArg (· + x4 (ix1 d)) (Finset.sum_congr rfl fun h _ => ?_)
  have hl : lidx_main_v57 (ix2 b d) h = ix2 b h := funext fun a => Fin.ext (by
    match a with
    | ⟨0, _⟩ => rfl
    | ⟨1, _⟩ => rfl)
  have hr : ridx_main_v57 (ix2 b d) h = ix2 h d := funext fun a => Fin.ext (by
    match a with
    | ⟨0, _⟩ => rfl
    | ⟨1, _⟩ => rfl)
  rw [hl, hr, val_main_v56_apply, hidden_v55, val_main_call1_v0_apply, val_main_call1_cst_apply]
  rfl

end Cert.ReferenceIdeal.RefValueA

end
-- ==== Proof.RefTermsB.lean ====
/-
  The reference's per-node results for receiving nodes 6 and 8, each read at an entry.

  For a receiving node the reference forms the aggregate edge by edge over the whole batch, then applies the two
  dense layers; entry (b, d) of that [8192, 1024] result is the perceptron of row b's aggregate at feature d.
-/
import proofs.«172449_j59313498358354_2_alg».proof.Proof.Gen.ReferenceIdeal.Read
import proofs.«172449_j59313498358354_2_alg».proof.Proof.Spec

noncomputable section

open scoped BigOperators

namespace Cert.ReferenceIdeal.RefValueB

open Cert.ReferenceIdeal Cert.ReferenceIdeal.Read Idealize.ShloMosaic Idealize.ShloMosaic.ValueIdx

variable (x0 : (⟨S8192x9x1024, .f32⟩ : BufTy).Contents (Elt Ideal)) (x1 : (⟨S1024x4096, .f32⟩ : BufTy).Contents (Elt Ideal))
  (x2 : (⟨S4096, .f32⟩ : BufTy).Contents (Elt Ideal)) (x3 : (⟨S4096x1024, .f32⟩ : BufTy).Contents (Elt Ideal))
  (x4 : (⟨S1024, .f32⟩ : BufTy).Contents (Elt Ideal))

/-- Entry (b, k) of the [8192, 1024] view of node 4's slice is the embedding of node 4 in row b at feature k:
    the flat position b · 1024 + k of the view splits back into (b, k). -/
theorem slot9 (b : Fin 8192) (k : Fin 1024) :
    val_main_v9 (F := Ideal) x0 (ix2 b k) = x0 (ix3 b (4 : Fin 9) k) := by
  rw [val_main_v9_apply, val_main_v8_apply]
  refine congrArg x0 (funext fun a => Fin.ext ?_)
  have hb := b.isLt
  have hk := k.isLt
  match a with
  | ⟨0, _⟩ => show (b.val * 1024 + k.val) / 1024 = b.val; omega
  | ⟨1, _⟩ => rfl
  | ⟨2, _⟩ => show (b.val * 1024 + k.val) % 1024 = k.val; omega

/-- Entry (b, k) of the [8192, 1024] view of node 5's slice is the embedding of node 5 in row b at feature k:
    the flat position b · 1024 + k of the view splits back into (b, k). -/
theorem slot11 (b : Fin 8192) (k : Fin 1024) :
    val_main_v11 (F := Ideal) x0 (ix2 b k) = x0 (ix3 b (5 : Fin 9) k) := by
  rw [val_main_v11_apply, val_main_v10_apply]
  refine congrArg x0 (funext fun a => Fin.ext ?_)
  have hb := b.isLt
  have hk := k.isLt
  match a with
  | ⟨0, _⟩ => show (b.val * 1024 + k.val) / 1024 = b.val; omega
  | ⟨1, _⟩ => rfl
  | ⟨2, _⟩ => show (b.val * 1024 + k.val) % 1024 = k.val; omega

/-- Entry (b, k) of the [8192, 1024] view of node 6's slice is the embedding of node 6 in row b at feature k:
    the flat position b · 1024 + k of the view splits back into (b, k). -/
theorem slot17 (b : Fin 8192) (k : Fin 1024) :
    val_main_v17 (F := Ideal) x0 (ix2 b k) = x0 (ix3 b (6 : Fin 9) k) := by
  rw [val_main_v17_apply, val_main_v16_apply]
  refine congrArg x0 (funext fun a => Fin.ext ?_)
  have hb := b.isLt
  have hk := k.isLt
  match a with
  | ⟨0, _⟩ => show (b.val * 1024 + k.val) / 1024 = b.val; omega
  | ⟨1, _⟩ => rfl
  | ⟨2, _⟩ => show (b.val * 1024 + k.val) % 1024 = k.val; omega

/-- Entry (b, k) of the [8192, 1024] view of node 7's slice is the embedding of node 7 in row b at feature k:
    the flat position b · 1024 + k of the view splits back into (b, k). -/
theorem slot19 (b : Fin 8192) (k : Fin 1024) :
    val_main_v19 (F := Ideal) x0 (ix2 b k) = x0 (ix3 b (7 : Fin 9) k) := by
  rw [val_main_v19_apply, val_main_v18_apply]
  refine congrArg x0 (funext fun a => Fin.ext ?_)
  have hb := b.isLt
  have hk := k.isLt
  match a with
  | ⟨0, _⟩ => show (b.val * 1024 + k.val) / 1024 = b.val; omega
  | ⟨1, _⟩ => rfl
  | ⟨2, _⟩ => show (b.val * 1024 + k.val) % 1024 = k.val; omega

/-- Entry (b, k) of the [8192, 1024] view of node 8's slice is the embedding of node 8 in row b at feature k:
    the flat position b · 1024 + k of the view splits back into (b, k). -/
theorem slot21 (b : Fin 8192) (k : Fin 1024) :
    val_main_v21 (F := Ideal) x0 (ix2 b k) = x0 (ix3 b (8 : Fin 9) k) := by
  rw [val_main_v21_apply, val_main_v20_apply]
  refine congrArg x0 (funext fun a => Fin.ext ?_)
  have hb := b.isLt
  have hk := k.isLt
  match a with
  | ⟨0, _⟩ => show (b.val * 1024 + k.val) / 1024 = b.val; omega
  | ⟨1, _⟩ => rfl
  | ⟨2, _⟩ => show (b.val * 1024 + k.val) % 1024 = k.val; omega

/-- Entry (b, k) of the [8192, 1024] view of node 6's slice is the embedding of node 6 in row b at feature k:
    the flat position b · 1024 + k of the view splits back into (b, k). -/
theorem slot67 (b : Fin 8192) (k : Fin 1024) :
    val_main_v67 (F := Ideal) x0 (ix2 b k) = x0 (ix3 b (6 : Fin 9) k) := by
  rw [val_main_v67_apply, val_main_v66_apply]
  refine congrArg x0 (funext fun a => Fin.ext ?_)
  have hb := b.isLt
  have hk := k.isLt
  match a with
  | ⟨0, _⟩ => show (b.val * 1024 + k.val) / 1024 = b.val; omega
  | ⟨1, _⟩ => rfl
  | ⟨2, _⟩ => show (b.val * 1024 + k.val) % 1024 = k.val; omega

/-- Entry (b, k) of the [8192, 1024] view of node 8's slice is the embedding of node 8 in row b at feature k:
    the flat position b · 1024 + k of the view splits back into (b, k). -/
theorem slot85 (b : Fin 8192) (k : Fin 1024) :
    val_main_v85 (F := Ideal) x0 (ix2 b k) = x0 (ix3 b (8 : Fin 9) k) := by
  rw [val_main_v85_apply, val_main_v84_apply]
  refine congrArg x0 (funext fun a => Fin.ext ?_)
  have hb := b.isLt
  have hk := k.isLt
  match a with
  | ⟨0, _⟩ => show (b.val * 1024 + k.val) / 1024 = b.val; omega
  | ⟨1, _⟩ => rfl
  | ⟨2, _⟩ => show (b.val * 1024 + k.val) % 1024 = k.val; omega

/-- The aggregate at receiving node 6, entry (b, k): 3 · ((0 + (e 4 + e 5)) + (e 8 - e 7)) + e 6 · ε on row b's
    embeddings at feature k. -/
theorem agg70 (b : Fin 8192) (k : Fin 1024) :
    val_main_v70 (F := Ideal) x0 (ix2 b k) = Cert.Msg.ragg (fun n => x0 (ix3 b n k)) 2 := by
  rw [val_main_v70_apply, val_main_v65_apply, val_main_v69_apply, val_main_v64_apply, val_main_cst_6_apply,
    val_main_v63_apply, val_main_v62_apply, val_main_v61_apply, val_main_cst_5_apply, val_main_v14_apply,
    val_main_v23_apply, val_main_v68_apply, val_main_cst_7_apply, slot9, slot11, slot21, slot19, slot67]
  rfl

/-- The first layer's bias, broadcast over the batch, read at (b, h). -/
theorem bias73 (b : Fin 8192) (h : Fin 4096) : val_main_v73 (F := Ideal) x2 (ix2 b h) = x2 (ix1 h) := by
  rw [val_main_v73_apply, val_main_v72_apply]
  exact congrArg x2 (funext fun a => by match a with | ⟨0, _⟩ => rfl)

/-- The second layer's bias, broadcast over the batch, read at (b, d). -/
theorem bias78 (b : Fin 8192) (d : Fin 1024) : val_main_v78 (F := Ideal) x4 (ix2 b d) = x4 (ix1 d) := by
  rw [val_main_v78_apply, val_main_v77_apply]
  exact congrArg x4 (funext fun a => by match a with | ⟨0, _⟩ => rfl)

/-- The hidden layer at receiving node 6, entry (b, h): max (Σ_k aggregate k · W₁[k, h] + b₁[h]) 0. -/
theorem hidden75 (b : Fin 8192) (h : Fin 4096) :
    val_main_v75 (F := Ideal) x0 x1 x2 (ix2 b h)
      = max ((∑ k : Fin 1024, Cert.Msg.ragg (fun n => x0 (ix3 b n k)) 2 * x1 (ix2 k h)) + x2 (ix1 h)) Cert.Msg.zero := by
  rw [val_main_v75_apply, val_main_v74_apply, val_main_call2_v0_apply, val_main_call2_cst_apply, val_main_v71_apply,
    bias73]
  refine congrArg₂ max (congrArg₂ (· + ·) (Finset.sum_congr rfl fun k _ => ?_) rfl) rfl
  have hl : lidx_main_v71 (ix2 b h) k = ix2 b k :=
    funext fun a => by match a with | ⟨0, _⟩ => rfl | ⟨1, _⟩ => rfl
  have hr : ridx_main_v71 (ix2 b h) k = ix2 k h :=
    funext fun a => by match a with | ⟨0, _⟩ => rfl | ⟨1, _⟩ => rfl
  rw [hl, hr, agg70]

/-- Receiving node 6 (term 2). -/
theorem term2 (b : Fin 8192) (d : Fin 1024) :
    val_main_v79 (F := Ideal) x0 x1 x2 x3 x4 (ix2 b d)
      = Cert.Msg.mlp (fun k => Cert.Msg.ragg (fun n => x0 (ix3 b n k)) 2) x1 x2 x3 x4 d := by
  rw [val_main_v79_apply, val_main_v76_apply, bias78]
  unfold Cert.Msg.mlp
  refine congrArg₂ (· + ·) (Finset.sum_congr rfl fun h _ => ?_) rfl
  have hl : lidx_main_v76 (ix2 b d) h = ix2 b h :=
    funext fun a => by match a with | ⟨0, _⟩ => rfl | ⟨1, _⟩ => rfl
  have hr : ridx_main_v76 (ix2 b d) h = ix2 h d :=
    funext fun a => by match a with | ⟨0, _⟩ => rfl | ⟨1, _⟩ => rfl
  rw [hl, hr, hidden75]

/-- The aggregate at receiving node 8, entry (b, k): 3 · (0 + (e 6 + e 7)) + e 8 · ε on row b's embeddings at
    feature k. -/
theorem agg88 (b : Fin 8192) (k : Fin 1024) :
    val_main_v88 (F := Ideal) x0 (ix2 b k) = Cert.Msg.ragg (fun n => x0 (ix3 b n k)) 3 := by
  rw [val_main_v88_apply, val_main_v83_apply, val_main_v87_apply, val_main_v82_apply, val_main_cst_9_apply,
    val_main_v81_apply, val_main_v80_apply, val_main_cst_8_apply, val_main_v22_apply, val_main_v86_apply,
    val_main_cst_10_apply, slot17, slot19, slot85]
  rfl

/-- The first layer's bias, broadcast over the batch, read at (b, h). -/
theorem bias91 (b : Fin 8192) (h : Fin 4096) : val_main_v91 (F := Ideal) x2 (ix2 b h) = x2 (ix1 h) := by
  rw [val_main_v91_apply, val_main_v90_apply]
  exact congrArg x2 (funext fun a => by match a with | ⟨0, _⟩ => rfl)

/-- The second layer's bias, broadcast over the batch, read at (b, d). -/
theorem bias96 (b : Fin 8192) (d : Fin 1024) : val_main_v96 (F := Ideal) x4 (ix2 b d) = x4 (ix1 d) := by
  rw [val_main_v96_apply, val_main_v95_apply]
  exact congrArg x4 (funext fun a => by match a with | ⟨0, _⟩ => rfl)

/-- The hidden layer at receiving node 8, entry (b, h): max (Σ_k aggregate k · W₁[k, h] + b₁[h]) 0. -/
theorem hidden93 (b : Fin 8192) (h : Fin 4096) :
    val_main_v93 (F := Ideal) x0 x1 x2 (ix2 b h)
      = max ((∑ k : Fin 1024, Cert.Msg.ragg (fun n => x0 (ix3 b n k)) 3 * x1 (ix2 k h)) + x2 (ix1 h)) Cert.Msg.zero := by
  rw [val_main_v93_apply, val_main_v92_apply, val_main_call3_v0_apply, val_main_call3_cst_apply, val_main_v89_apply,
    bias91]
  refine congrArg₂ max (congrArg₂ (· + ·) (Finset.sum_congr rfl fun k _ => ?_) rfl) rfl
  have hl : lidx_main_v89 (ix2 b h) k = ix2 b k :=
    funext fun a => by match a with | ⟨0, _⟩ => rfl | ⟨1, _⟩ => rfl
  have hr : ridx_main_v89 (ix2 b h) k = ix2 k h :=
    funext fun a => by match a with | ⟨0, _⟩ => rfl | ⟨1, _⟩ => rfl
  rw [hl, hr, agg88]

/-- Receiving node 8 (term 3). -/
theorem term3 (b : Fin 8192) (d : Fin 1024) :
    val_main_v97 (F := Ideal) x0 x1 x2 x3 x4 (ix2 b d)
      = Cert.Msg.mlp (fun k => Cert.Msg.ragg (fun n => x0 (ix3 b n k)) 3) x1 x2 x3 x4 d := by
  rw [val_main_v97_apply, val_main_v94_apply, bias96]
  unfold Cert.Msg.mlp
  refine congrArg₂ (· + ·) (Finset.sum_congr rfl fun h _ => ?_) rfl
  have hl : lidx_main_v94 (ix2 b d) h = ix2 b h :=
    funext fun a => by match a with | ⟨0, _⟩ => rfl | ⟨1, _⟩ => rfl
  have hr : ridx_main_v94 (ix2 b d) h = ix2 h d :=
    funext fun a => by match a with | ⟨0, _⟩ => rfl | ⟨1, _⟩ => rfl
  rw [hl, hr, hidden93]

end Cert.ReferenceIdeal.RefValueB

end
-- ==== Proof.RefValue.lean ====
/-
  The reference's whole result, entry by entry.

  The reference stacks its four per-node results [8192, 1024] along a new leading axis: entry (t, b, d) of the
  stack is entry (b, d) of the result for receiving node t, that is the perceptron of row b's edge-by-edge
  aggregate at node t, read at feature d.
-/
import proofs.«172449_j59313498358354_2_alg».proof.Proof.Gen.ReferenceIdeal.Read
import proofs.«172449_j59313498358354_2_alg».proof.Proof.Spec
import proofs.«172449_j59313498358354_2_alg».proof.Proof.RefTermsA
import proofs.«172449_j59313498358354_2_alg».proof.Proof.RefTermsB
import Idealize.ShloMosaic.Lib.Pipeline.Value
import Idealize.ShloMosaic.Lib.ValueIdx

noncomputable section

namespace Cert.ReferenceIdeal.RefValue

open Cert.ReferenceIdeal Cert.ReferenceIdeal.Read Idealize.ShloMosaic Idealize.ShloMosaic.ValueIdx

variable (x0 : (⟨S8192x9x1024, .f32⟩ : BufTy).Contents (Elt Ideal)) (x1 : (⟨S1024x4096, .f32⟩ : BufTy).Contents (Elt Ideal))
  (x2 : (⟨S4096, .f32⟩ : BufTy).Contents (Elt Ideal)) (x3 : (⟨S4096x1024, .f32⟩ : BufTy).Contents (Elt Ideal))
  (x4 : (⟨S1024, .f32⟩ : BufTy).Contents (Elt Ideal))

/-- A slab [1, 8192, 1024] made from an [8192, 1024] array reads that array at the two trailing coordinates
    (one statement per slab: the four index maps are the same map under four names). -/
theorem slab_idx0 (b : Fin 8192) (d : Fin 1024) : idx_main_v98 (ix3 (0 : Fin 1) b d) = ix2 b d :=
  funext fun a => match a with
    | ⟨0, _⟩ => rfl
    | ⟨1, _⟩ => rfl
theorem slab_idx1 (b : Fin 8192) (d : Fin 1024) : idx_main_v99 (ix3 (0 : Fin 1) b d) = ix2 b d :=
  funext fun a => match a with
    | ⟨0, _⟩ => rfl
    | ⟨1, _⟩ => rfl
theorem slab_idx2 (b : Fin 8192) (d : Fin 1024) : idx_main_v100 (ix3 (0 : Fin 1) b d) = ix2 b d :=
  funext fun a => match a with
    | ⟨0, _⟩ => rfl
    | ⟨1, _⟩ => rfl
theorem slab_idx3 (b : Fin 8192) (d : Fin 1024) : idx_main_v101 (ix3 (0 : Fin 1) b d) = ix2 b d :=
  funext fun a => match a with
    | ⟨0, _⟩ => rfl
    | ⟨1, _⟩ => rfl

/-- Off the stacking axis the slab's index (0, b, d) and the stack's index (t, b, d) have the same coordinates. -/
theorem off_axis (t : Fin 4) (b : Fin 8192) (d : Fin 1024) :
    ∀ c : Fin S1x8192x1024.rank, c.cast (rfl : S1x8192x1024.rank = S4x8192x1024.rank) ≠ (0 : Fin S4x8192x1024.rank) →
      ((ix3 (0 : Fin 1) b d : S1x8192x1024.Idx) c).val
        = ((ix3 t b d : S4x8192x1024.Idx) (c.cast (rfl : S1x8192x1024.rank = S4x8192x1024.rank))).val :=
  fun c hc => match c, hc with
    | ⟨0, _⟩, hc => absurd rfl hc
    | ⟨1, _⟩, _ => rfl
    | ⟨2, _⟩, _ => rfl

/-- Entry (t, b, d) of the stacked result is the perceptron of row b's aggregate at receiving node t. -/
theorem val_at (t : Fin 4) (b : Fin 8192) (d : Fin 1024) :
    val_main_v102 (F := Ideal) x0 x1 x2 x3 x4 (ix3 t b d)
      = Cert.Msg.mlp (fun k => Cert.Msg.ragg (fun n => x0 (ix3 b n k)) t) x1 x2 x3 x4 d := by
  unfold val_main_v102
  match t with
  | ⟨0, _⟩ =>
    refine (concatenate_apply_piece (0 : Fin S4x8192x1024.rank) _ _ _ 0 (by show (0 : Nat) < 4; omega) S1x8192x1024
      (val_main_v98 (F := Ideal) x0 x1 x2 x3 x4) rfl rfl 0 rfl (ix3 (0 : Fin 1) b d) (off_axis _ b d) rfl).trans ?_
    rw [val_main_v98_apply, slab_idx0]
    exact RefValueA.term0 x0 x1 x2 x3 x4 b d
  | ⟨1, _⟩ =>
    refine (concatenate_apply_piece (0 : Fin S4x8192x1024.rank) _ _ _ 1 (by show (1 : Nat) < 4; omega) S1x8192x1024
      (val_main_v99 (F := Ideal) x0 x1 x2 x3 x4) rfl rfl 1 rfl (ix3 (0 : Fin 1) b d) (off_axis _ b d) rfl).trans ?_
    rw [val_main_v99_apply, slab_idx1]
    exact RefValueA.term1 x0 x1 x2 x3 x4 b d
  | ⟨2, _⟩ =>
    refine (concatenate_apply_piece (0 : Fin S4x8192x1024.rank) _ _ _ 2 (by show (2 : Nat) < 4; omega) S1x8192x1024
      (val_main_v100 (F := Ideal) x0 x1 x2 x3 x4) rfl rfl 2 rfl (ix3 (0 : Fin 1) b d) (off_axis _ b d) rfl).trans ?_
    rw [val_main_v100_apply, slab_idx2]
    exact RefValueB.term2 x0 x1 x2 x3 x4 b d
  | ⟨3, _⟩ =>
    refine (concatenate_apply_piece (0 : Fin S4x8192x1024.rank) _ _ _ 3 (by show (3 : Nat) < 4; omega) S1x8192x1024
      (val_main_v101 (F := Ideal) x0 x1 x2 x3 x4) rfl rfl 3 rfl (ix3 (0 : Fin 1) b d) (off_axis _ b d) rfl).trans ?_
    rw [val_main_v101_apply, slab_idx3]
    exact RefValueB.term3 x0 x1 x2 x3 x4 b d

/-- The reference's whole result is the edge-by-edge array of the specification. -/
theorem val_eq : val_main_v102 (F := Ideal) x0 x1 x2 x3 x4 = Cert.Msg.outR x0 x1 x2 x3 x4 := by
  funext j
  rw [eq_ix3 j]
  exact val_at x0 x1 x2 x3 x4 (j 0) (j 1) (j 2)

end Cert.ReferenceIdeal.RefValue

end
-- ==== Proof.LibEReal.lean ====
/-
  Two facts about finiteness on the extended reals, and the float pattern of +∞.

  • `add_sub_cancel_real`: for a REAL number `a` and ANY extended real `q`, `a + (q - a) = q`.  This is the forward
    value of a "straight-through" expression `a + (q - a)`; it fails for infinite `a` (`⊤ + (q - ⊤) = ⊥` for real `q`).
  • `real_of_abs_lt_top`: an extended real whose absolute value `max x (-x)` is below `⊤` is a real number — the reading
    of a test "every entry has absolute value below +∞".
  • `inf_pattern`, `lt_top_of_cmp`: the f32 pattern 0x7F800000 denotes `⊤`, and an ordered less-than comparison against
    it that came out true says the left side is below `⊤`.
-/
import Idealize.ShloMosaic.PureOps.Ideal

noncomputable section

namespace Cert.LibEReal

open Idealize.ShloMosaic

/-- Adding a real number `a` to `q - a` gives `q` back, for EVERY extended real `q`: at `q = ⊤` both sides are `⊤`, at
    `q = ⊥` both are `⊥`, and between them it is the cancellation in the reals. -/
theorem add_sub_cancel_real (a : ℝ) (q : EReal) : (a : EReal) + (q - (a : EReal)) = q := by
  induction q using EReal.rec with
  | bot => rw [EReal.bot_sub, EReal.add_bot]
  | top => rw [EReal.top_sub_coe, EReal.coe_add_top]
  | coe s => rw [← EReal.coe_sub, ← EReal.coe_add]; exact congrArg _ (by ring)

/-- An extended real whose absolute value is below `⊤` is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The f32 pattern of +∞ denotes `⊤`. -/
theorem inf_pattern : Ideal.ofBits .f32 0x7F800000#32 = ⊤ := by simp [Ideal.ofBits, Ideal.ieee]

/-- An ordered less-than test against the pattern of +∞ that is true says the left side is below `⊤`. -/
theorem lt_top_of_cmp (x : EReal) (h : Ideal.cmp .olt x (Ideal.ofBits .f32 0x7F800000#32) = 1#1) : x < ⊤ := by
  rw [inf_pattern] at h
  by_contra hc
  simp [Ideal.cmp, hc] at h

end Cert.LibEReal

end
-- ==== Proof.Finite.lean ====
/-
  The precondition makes every node embedding a real number.

  The precondition is the conjunction, over the five arguments, of "every entry has absolute value below +∞".
  Its first conjunct, read at an entry of the node embeddings, says |x| < +∞ on the extended reals, and an
  extended real whose absolute value is below +∞ is a real number.
-/
import proofs.«172449_j59313498358354_2_alg».proof.Pre_finite_inputs
import proofs.«172449_j59313498358354_2_alg».proof.Proof.LibEReal
import Idealize.ShloMosaic.Lib.ReduceAll
import Idealize.ShloMosaic.Lib.ValueIdx
import Idealize.ShloMosaic.PureOps.Ideal

noncomputable section

namespace Cert.Msg.Finite

open Idealize.ShloMosaic

/-- The shape with no axes has one index. -/
instance scalarIdx_subsingleton : Subsingleton Cert.Pre_finite_inputs.S_.Idx :=
  ⟨fun a b => funext fun d => d.elim0⟩

/-- Under the precondition every entry of the node embeddings is a real number. -/
theorem arg0_real [Cert.Pre_finite_inputs.Facts] (a0 : FVec Ideal Cert.Pre_finite_inputs.S8192x9x1024 .f32)
    (a1 : FVec Ideal Cert.Pre_finite_inputs.S1024x4096 .f32) (a2 : FVec Ideal Cert.Pre_finite_inputs.S4096 .f32)
    (a3 : FVec Ideal Cert.Pre_finite_inputs.S4096x1024 .f32) (a4 : FVec Ideal Cert.Pre_finite_inputs.S1024 .f32)
    (h : Cert.Pre_finite_inputs.fn (F := Ideal) a0 a1 a2 a3 a4 = fun _ => 1#1)
    (i : Cert.Pre_finite_inputs.S8192x9x1024.Idx) : ∃ r : ℝ, a0 i = (r : EReal) := by
  have e := congrFun h ValueIdx.ix0
  dsimp only [Cert.Pre_finite_inputs.fn, Cert.Pre_finite_inputs.fn_part1, andi] at e
  -- the conjunction of the five tests: keep the first
  have e0 := (IntOp.andi_eq_one.1 (IntOp.andi_eq_one.1 (IntOp.andi_eq_one.1 (IntOp.andi_eq_one.1 e).1).1).1).1
  -- the first test holds at every entry
  have p := Host.reduce_andi_all _ _ _ _ _ e0 i
  -- at entry i it says max (a0 i) (-(a0 i)) < +∞
  exact Cert.LibEReal.real_of_abs_lt_top (a0 i) (Cert.LibEReal.lt_top_of_cmp (max (a0 i) (-(a0 i))) p)

end Cert.Msg.Finite

end
-- ==== Proof.lean ====
/-
  Message passing on a three-edge query graph followed by a two-layer perceptron: the kernel against its
  reference, on extended reals.

  Each batch row carries nine node embeddings; the receiving nodes 2, 4, 6, 8 each get the aggregate of their
  incoming messages — a fixed linear combination of the row's embeddings with coefficients 3, -3 and ε — and the
  perceptron x ↦ max (x · W₁ + b₁) 0 · W₂ + b₂ is applied to every aggregate; the result is [4, 8192, 1024].

  The kernel works on 64 rows at a time: it forms each aggregate as a left-to-right sum of products
  (embedding · coefficient), stacks the four aggregates into 256 rows, and runs both dense layers on the stack;
  point t of its grid writes rows 64·t … 64·t + 63 of all four result slabs, so the 128 points cover the result.
  The reference forms each aggregate edge by edge over the whole batch (sums and differences of embeddings,
  times 3, plus ε times the node's own embedding), runs the dense layers per receiving node and stacks the four
  results.

  Entry (t, b, d) of either result is the perceptron of row b's aggregate at receiving node t, read at feature d
  (Spec.lean's `mlp`, over `kagg` for the kernel and `ragg` for the reference): the matrix products are the same
  sums on both sides, a change of float format is the identity on extended reals, and the constants are the same
  patterns. The two spellings of the aggregate agree by distributivity, which on extended reals needs the
  embeddings to be real numbers: that is where the precondition (every input finite) is used, and it is used
  nowhere else.
-/
import proofs.«172449_j59313498358354_2_alg».proof.Defs
import proofs.«172449_j59313498358354_2_alg».proof.Proof.Gen.Kernel
import proofs.«172449_j59313498358354_2_alg».proof.Proof.Gen.Kernel.Skeleton
import proofs.«172449_j59313498358354_2_alg».proof.Proof.Gen.Kernel.Launch
import proofs.«172449_j59313498358354_2_alg».proof.Proof.Gen.Kernel.Points
import proofs.«172449_j59313498358354_2_alg».proof.Proof.Gen.Kernel.Frame
import proofs.«172449_j59313498358354_2_alg».proof.Proof.Gen.KernelIdeal
import proofs.«172449_j59313498358354_2_alg».proof.Proof.Gen.KernelIdeal.Skeleton
import proofs.«172449_j59313498358354_2_alg».proof.Proof.Gen.KernelIdeal.Launch
import proofs.«172449_j59313498358354_2_alg».proof.Proof.Gen.KernelIdeal.Points
import proofs.«172449_j59313498358354_2_alg».proof.Proof.Gen.KernelIdeal.Frame
import proofs.«172449_j59313498358354_2_alg».proof.Proof.Gen.ReferenceIdeal
import proofs.«172449_j59313498358354_2_alg».proof.Proof.Gen.Pre_finite_inputs
import proofs.«172449_j59313498358354_2_alg».proof.Proof.Gen.KernelIdeal.Value
import proofs.«172449_j59313498358354_2_alg».proof.Proof.Gen.ReferenceIdeal.Run
import proofs.«172449_j59313498358354_2_alg».proof.Proof.Gen.ReferenceIdeal.Read
import proofs.«172449_j59313498358354_2_alg».proof.Proof.Spec
import proofs.«172449_j59313498358354_2_alg».proof.Proof.KernelArray
import proofs.«172449_j59313498358354_2_alg».proof.Proof.RefValue
import proofs.«172449_j59313498358354_2_alg».proof.Proof.Finite
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the same [4, 8192, 1024] array: the kernel's run ends at the sum-of-products form of
    the specification over its arguments, the reference's at the edge-by-edge form over its own, the arguments
    agree, and for finite node embeddings the two forms are one array. -/
theorem algebraic : Cert.algebraic_KernelIdeal_ReferenceIdeal := by
  intro m ρ m' ρ' hpre hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v102_eq, Cert.ReferenceIdeal.RefValue.val_eq,
    (hagree c).1, (hagree c).2.1, (hagree c).2.2.1, (hagree c).2.2.2.1, (hagree c).2.2.2.2]
  exact (Cert.Msg.outK_eq_outR _ (fun i => Cert.Msg.Finite.arg0_real _ _ _ _ _ (hpre c) i) _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
